-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg9 : FVec F S64x5 .f32) (main_arg10 : FVec F S5 .f32) (main_v33 : IVec S_ 1) : IVec S_ 1 :=
  let main_v34 : FVec F S64x5 .f32 := Host.absf main_arg9
  let main_cst_12 : FVec F S_ .f32 := constant S_ .f32 0x7F800000#32
  let main_v35 : FVec F S64x5 .f32 := broadcastInDim S64x5 ![] bcast_S_S64x5 main_cst_12
  let main_v36 : IVec S64x5 1 := cmpf .olt main_v34 main_v35
  let main_c_13 : IVec S_ 1 := constantI S_ 1 1#1
  let main_v37 : IVec S_ 1 := (fun x v => Host.reduce IntOp.andi x v reducesTo_S64x5_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x5 .f32) (main_arg10 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x5 .f32) (main_arg10 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S5000x128 : Shape := ⟨2, ![5000, 128]⟩
abbrev S5000x64 : Shape := ⟨2, ![5000, 64]⟩
abbrev S1300000x64 : Shape := ⟨2, ![1300000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x5 : Shape := ⟨2, ![128, 5]⟩
abbrev S1x5 : Shape := ⟨2, ![1, 5]⟩

abbrev nBuf : Space → Nat
  | .hbm => 126
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x5, .f32⟩
  | .hbm, ⟨10, _⟩ => ⟨S5, .f32⟩
  | .hbm, ⟨11, _⟩ => ⟨S100000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S1x1200000, .i32⟩
  | .hbm, ⟨16, _⟩ => ⟨S1200000, .i32⟩
  | .hbm, ⟨17, _⟩ => ⟨S1300000, .i32⟩
  | .hbm, ⟨18, _⟩ => ⟨S_, .f32⟩
  | .hbm, ⟨19, _⟩ => ⟨S1300000, .f32⟩
  | .hbm, ⟨20, _⟩ => ⟨S_, .f32⟩
  | .hbm, ⟨21, _⟩ => ⟨S100000, .f32⟩
  | .hbm, ⟨22, _⟩ => ⟨S1300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S100000x64, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x1, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1300000, .i32⟩
  | .hbm, ⟨72, _⟩ => ⟨S1300000, .i1⟩
  | .hbm, ⟨73, _⟩ => ⟨S_, .i32⟩
  | .hbm, ⟨74, _⟩ => ⟨S1300000, .i32⟩
  | .hbm, ⟨75, _⟩ => ⟨S1300000, .i32⟩
  | .hbm, ⟨76, _⟩ => ⟨S1300000, .i32⟩
  | .hbm, ⟨77, _⟩ => ⟨S1300000x1, .i32⟩
  | .hbm, ⟨78, _⟩ => ⟨S1300000x64, .f32⟩
  | .hbm, ⟨79, _⟩ => ⟨S1300000x1, .f32⟩
  | .hbm, ⟨80, _⟩ => ⟨S1300000x64, .f32⟩
  | .hbm, ⟨81, _⟩ => ⟨S1300000x64, .f32⟩
  | .hbm, ⟨82, _⟩ => ⟨S_, .f32⟩
  | .hbm, ⟨83, _⟩ => ⟨S100000x64, .f32⟩
  | .hbm, ⟨84, _⟩ => ⟨S1300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1300000, .i32⟩
  | .hbm, ⟨90, _⟩ => ⟨S1300000, .i1⟩
  | .hbm, ⟨91, _⟩ => ⟨S_, .i32⟩
  | .hbm, ⟨92, _⟩ => ⟨S1300000, .i32⟩
  | .hbm, ⟨93, _⟩ => ⟨S1300000, .i32⟩
  | .hbm, ⟨94, _⟩ => ⟨S1300000, .i32⟩
  | .hbm, ⟨95, _⟩ => ⟨S1300000x1, .i32⟩
  | .hbm, ⟨96, _⟩ => ⟨S1300000x64, .f32⟩
  | .hbm, ⟨97, _⟩ => ⟨S1300000x1, .f32⟩
  | .hbm, ⟨98, _⟩ => ⟨S1300000x64, .f32⟩
  | .hbm, ⟨99, _⟩ => ⟨S1300000x64, .f32⟩
  | .hbm, ⟨100, _⟩ => ⟨S_, .f32⟩
  | .hbm, ⟨101, _⟩ => ⟨S100000x64, .f32⟩
  | .hbm, ⟨102, _⟩ => ⟨S1300000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S_, .f32⟩
  | .hbm, ⟨107, _⟩ => ⟨S128x64, .f32⟩
  | .hbm, ⟨108, _⟩ => ⟨S100000x1, .i32⟩
  | .hbm, ⟨109, _⟩ => ⟨S128x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S128, .f32⟩
  | .hbm, ⟨114, _⟩ => ⟨S100000x1, .i32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x64, .f32⟩
  | .hbm, ⟨121, _⟩ => ⟨S128x64, .f32⟩
  | .hbm, ⟨122, _⟩ => ⟨S128x5, .f32⟩
  | .hbm, ⟨123, _⟩ => ⟨S1x5, .f32⟩
  | .hbm, ⟨124, _⟩ => ⟨S128x5, .f32⟩
  | .hbm, ⟨125, _⟩ => ⟨S128x5, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S5_S1x5_1 : S5.BroadcastsInDim S1x5 (![1] : Fin 1 → Fin S1x5.rank)
  bcast_S1x5_S128x5_0_1 : S1x5.BroadcastsInDim S128x5 (![0, 1] : Fin 2 → Fin S128x5.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x128_S128x64_S5000x64_1_0_0_1_n_n_wf : DotDims.WF S5000x128 S128x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x5_S128x5_1_0_0_1_n_n_wf : DotDims.WF S128x64 S64x5 S128x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x5_S128x5_1_0_0_1_n_n : DotDims S128x64 S64x5 S128x5 where
  lhsContracting := [1]
  rhsContracting := [0]
  lhsNonContracting := [0]
  rhsNonContracting := [1]
  lhsBatch := []
  rhsBatch := []
  wf := dot_S128x64_S64x5_S128x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x5 : Shape := ⟨2, ![128, 5]⟩
abbrev S1x5 : Shape := ⟨2, ![1, 5]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x5, .f32⟩
  | 10 => ⟨S5, .f32⟩
  | 11 => ⟨S100000, .i32⟩
  | 12 => ⟨S1x1200000, .i32⟩
  | 13 => ⟨S1200000, .i32⟩
  | 14 => ⟨S1300000, .i32⟩
  | 15 => ⟨S1x1200000, .i32⟩
  | 16 => ⟨S1200000, .i32⟩
  | 17 => ⟨S1300000, .i32⟩
  | 18 => ⟨S_, .f32⟩
  | 19 => ⟨S1300000, .f32⟩
  | 20 => ⟨S_, .f32⟩
  | 21 => ⟨S100000, .f32⟩
  | 22 => ⟨S1300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1300000, .i32⟩
  | 34 => ⟨S1300000, .i1⟩
  | 35 => ⟨S_, .i32⟩
  | 36 => ⟨S1300000, .i32⟩
  | 37 => ⟨S1300000, .i32⟩
  | 38 => ⟨S1300000, .i32⟩
  | 39 => ⟨S1300000x1, .i32⟩
  | 40 => ⟨S1300000, .f32⟩
  | 41 => ⟨S_, .i32⟩
  | 42 => ⟨S1300000, .i32⟩
  | 43 => ⟨S1300000, .i1⟩
  | 44 => ⟨S_, .i32⟩
  | 45 => ⟨S1300000, .i32⟩
  | 46 => ⟨S1300000, .i32⟩
  | 47 => ⟨S1300000, .i32⟩
  | 48 => ⟨S1300000x1, .i32⟩
  | 49 => ⟨S1300000, .f32⟩
  | 50 => ⟨S1300000, .f32⟩
  | 51 => ⟨S100000x64, .f32⟩
  | 52 => ⟨S_, .i32⟩
  | 53 => ⟨S1300000, .i32⟩
  | 54 => ⟨S1300000, .i1⟩
  | 55 => ⟨S_, .i32⟩
  | 56 => ⟨S1300000, .i32⟩
  | 57 => ⟨S1300000, .i32⟩
  | 58 => ⟨S1300000, .i32⟩
  | 59 => ⟨S1300000x1, .i32⟩
  | 60 => ⟨S1300000x64, .f32⟩
  | 61 => ⟨S1300000x1, .f32⟩
  | 62 => ⟨S1300000x64, .f32⟩
  | 63 => ⟨S1300000x64, .f32⟩
  | 64 => ⟨S_, .f32⟩
  | 65 => ⟨S100000x64, .f32⟩
  | 66 => ⟨S1300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1300000, .i32⟩
  | 77 => ⟨S1300000, .i1⟩
  | 78 => ⟨S_, .i32⟩
  | 79 => ⟨S1300000, .i32⟩
  | 80 => ⟨S1300000, .i32⟩
  | 81 => ⟨S1300000, .i32⟩
  | 82 => ⟨S1300000x1, .i32⟩
  | 83 => ⟨S1300000x64, .f32⟩
  | 84 => ⟨S1300000x1, .f32⟩
  | 85 => ⟨S1300000x64, .f32⟩
  | 86 => ⟨S1300000x64, .f32⟩
  | 87 => ⟨S_, .f32⟩
  | 88 => ⟨S100000x64, .f32⟩
  | 89 => ⟨S1300000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1300000, .i32⟩
  | 100 => ⟨S1300000, .i1⟩
  | 101 => ⟨S_, .i32⟩
  | 102 => ⟨S1300000, .i32⟩
  | 103 => ⟨S1300000, .i32⟩
  | 104 => ⟨S1300000, .i32⟩
  | 105 => ⟨S1300000x1, .i32⟩
  | 106 => ⟨S1300000x64, .f32⟩
  | 107 => ⟨S1300000x1, .f32⟩
  | 108 => ⟨S1300000x64, .f32⟩
  | 109 => ⟨S1300000x64, .f32⟩
  | 110 => ⟨S_, .f32⟩
  | 111 => ⟨S100000x64, .f32⟩
  | 112 => ⟨S1300000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S128x64, .f32⟩
  | 122 => ⟨S100000x1, .i32⟩
  | 123 => ⟨S128x64, .f32⟩
  | 124 => ⟨S_, .f32⟩
  | 125 => ⟨S100000, .f32⟩
  | 126 => ⟨S_, .f32⟩
  | 127 => ⟨S128, .f32⟩
  | _ => ⟨S100000x128, .f32⟩

abbrev hbmTy0_1 (i : Nat) : BufTy := match i % 128 with
  | 0 => ⟨S100000x1, .i32⟩
  | 1 => ⟨S128, .f32⟩
  | 2 => ⟨S_, .f32⟩
  | 3 => ⟨S128, .f32⟩
  | 4 => ⟨S128, .f32⟩
  | 5 => ⟨S128x1, .f32⟩
  | 6 => ⟨S128x64, .f32⟩
  | 7 => ⟨S128x64, .f32⟩
  | 8 => ⟨S128x5, .f32⟩
  | 9 => ⟨S1x5, .f32⟩
  | 10 => ⟨S128x5, .f32⟩
  | 11 => ⟨S128x5, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S5_S1x5_1 : S5.BroadcastsInDim S1x5 (![1] : Fin 1 → Fin S1x5.rank)
  bcast_S1x5_S128x5_0_1 : S1x5.BroadcastsInDim S128x5 (![0, 1] : Fin 2 → Fin S128x5.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x5_S128x5_1_0_0_1_n_n_wf : DotDims.WF S128x64 S64x5 S128x5 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x5_S128x5_1_0_0_1_n_n : DotDims S128x64 S64x5 S128x5 where
  lhsContracting := [1]
  rhsContracting := [0]
  lhsNonContracting := [0]
  rhsNonContracting := [1]
  lhsBatch := []
  rhsBatch := []
  wf := dot_S128x64_S64x5_S128x5_1_0_0_1_n_n_wf

class Facts : Prop extends Facts₀ where

variable [Facts]
-- ==== Proof.KernelRun.lean ====
/-
  The idealized kernel program's run, with its result named.

  The program is eleven segments: host operations, then four grid launches (a matrix product, two fused
  "add bias, clamp at zero, matrix product" launches and one "add bias, clamp at zero" launch), each followed
  by host operations.  The buffer contents at each segment boundary are the fold `Gen.W0 … Gen.W11`; the last
  thread state holds every unscoped buffer at `Gen.W11`, so the final memory's result buffer is `Gen.W11` read at
  the result's reference, and every argument is as launched.
-/
import proofs.«130600_j25237227831713_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents and every
    argument array ends as launched. -/
theorem run : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.Spec.lean ====
/-
  The mathematics shared by the kernel and the reference, over extended reals and literal extents.

  A layer of the network is "add a bias row to every row, clamp at zero, multiply by a weight matrix"; the
  first layer is a plain matrix product and the last has no product.  These are stated here as whole-array
  functions, index by index, so that a grid launch (which computes them block of rows by block of rows) and
  the host operations of the reference (which compute them in one piece) can both be read as the same function.
-/
import Idealize.ShloMosaic.PureOps.Ideal
import Idealize.ShloMosaic.Lib.ValueIdx

noncomputable section

namespace Cert.Spec

open Idealize.ShloMosaic Idealize.ShloMosaic.ValueIdx

/-- A rank-2 array of extended reals with `r` rows and `c` columns. -/
abbrev Arr (r c : Nat) := (⟨2, ![r, c]⟩ : Shape).Idx → EReal

/-- The row of a rank-2 index, as a number below the row count. -/
def rowOf {r c : Nat} (i : (⟨2, ![r, c]⟩ : Shape).Idx) : Fin r := ⟨(i 0).val, idx2_lt0 i⟩
/-- The column of a rank-2 index, as a number below the column count. -/
def colOf {r c : Nat} (i : (⟨2, ![r, c]⟩ : Shape).Idx) : Fin c := ⟨(i 1).val, idx2_lt1 i⟩

theorem rowOf_ix2 {r c : Nat} (p : Fin r) (q : Fin c) : rowOf (ix2 p q) = p := rfl
theorem colOf_ix2 {r c : Nat} (p : Fin r) (q : Fin c) : colOf (ix2 p q) = q := rfl

/-- The matrix product: entry (row, col) is the sum over `k` of `A (row, k) · B (k, col)`. -/
def prod {n K c : Nat} (A : Arr n K) (B : Arr K c) : Arr n c :=
  fun i => ∑ k : Fin K, A (ix2 (rowOf i) k) * B (ix2 k (colOf i))

/-- Add the one-row array `b` to every row of `a` and clamp at zero. -/
def act {n c : Nat} (a : Arr n c) (b : Arr 1 c) : Arr n c :=
  fun i => max (a i + b (ix2 0 (colOf i))) 0

/-- A length-`c` vector as a one-row array. -/
def asRow {c : Nat} (b : (⟨1, ![c]⟩ : Shape).Idx → EReal) : Arr 1 c := fun i => b (ix1 (colOf i))

theorem asRow_apply {c : Nat} (b : (⟨1, ![c]⟩ : Shape).Idx → EReal) (u : Fin 1) (q : Fin c) :
    asRow b (ix2 u q) = b (ix1 q) := rfl

theorem prod_apply {n K c : Nat} (A : Arr n K) (B : Arr K c) (p : Fin n) (q : Fin c) :
    prod A B (ix2 p q) = ∑ k : Fin K, A (ix2 p k) * B (ix2 k q) := rfl

theorem act_apply {n c : Nat} (a : Arr n c) (b : Arr 1 c) (p : Fin n) (q : Fin c) :
    act a b (ix2 p q) = max (a (ix2 p q) + b (ix2 0 q)) 0 := rfl

end Cert.Spec

end
-- ==== Proof.Launch0.lean ====
/-
  The first grid launch: the product of the [100000,128] node features by the [128,64] weights, computed
  5000 rows at a time.  Point `t` of the grid loads rows `5000·t … 5000·t + 4999` of the features and the whole
  weight matrix, multiplies them (the change of float format before the product is the identity on extended
  reals, and the product accumulates into zero), and writes the result to the same rows of the output.  The
  twenty blocks tile the output, so the output array ends as the whole product.
-/
import proofs.«130600_j25237227831713_1_alg».proof.Proof.Gen.KernelIdeal.Frame
import proofs.«130600_j25237227831713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Launch0

open Cert.KernelIdeal Cert.KernelIdeal.Gen Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- The launch's contraction: rows by columns over the 128 feature columns. -/
abbrev D0 : DotDims S5000x128 S128x64 S5000x64 := dot_S5000x128_S128x64_S5000x64_1_0_0_1_n_n

theorem lhs0 (i : S5000x64.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem lhs1 (i : S5000x64.Idx) (q : D0.contr.Idx) : (D0.lhsIdx i q 1).val = (q ⟨0, by decide⟩).val :=
  D0.lhsIdx_val_of_single rfl i q
theorem rhs0 (i : S5000x64.Idx) (q : D0.contr.Idx) : (D0.rhsIdx i q 0).val = (q ⟨0, by decide⟩).val :=
  D0.rhsIdx_val_of_single rfl i q
theorem rhs1 (i : S5000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- What one grid point stores, entry by entry: row `p` of its block of features times column `q` of the weights. -/
theorem pay_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 128 rfl rfl).symm k) = ix2 k q := funext fun a => Fin.ext (by
    match a with
    | ⟨0, _⟩ => exact (rhs0 _ _).trans hk
    | ⟨1, _⟩ => exact rhs1 _ _)
  show x0 (D0.lhsIdx _ _) * x1 (D0.rhsIdx _ _) = _
  rw [el, er]

/-- Where each window's block sits at grid point `t`: the features' and the output's blocks are the `t`-th
    block of rows, the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `5000·t …` of the features as the launch finds them. -/
theorem read_lhs (c : Dev nD) (t : Fin cfg0.N) (p : Fin 5000) (k : Fin 128) (r : Fin 100000) (hr : r.val = 5000 * t.val + p.val) :
    (iblk0 V c 0 t : Vec Ideal S5000x128 .f32) (ix2 p k) = (V c main_arg0 : Arr 100000 128) (ix2 r k) := by
  obtain ⟨e0, e1, -, -, -, -⟩ := idx_facts t
  unfold iblk0
  rw [View.read_apply]
  show V c main_arg0 (((cfg0.win 0).blk t).view.emb (ix2 p k)) = V c main_arg0 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the whole weight matrix. -/
theorem read_rhs (c : Dev nD) (t : Fin cfg0.N) (k : Fin 128) (q : Fin 64) :
    (iblk0 V c 1 t : Vec Ideal S128x64 .f32) (ix2 k q) = (V c main_arg3 : Arr 128 64) (ix2 k q) := by
  obtain ⟨-, -, e0, e1, -, -⟩ := idx_facts t
  unfold iblk0
  rw [View.read_apply]
  show V c main_arg3 (((cfg0.win 1).blk t).view.emb (ix2 k q)) = V c main_arg3 _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- Entry (p, q) of the output's block at point `t` is entry (5000·t + p, q) of the output array. -/
theorem emb_out (t : Fin cfg0.N) (p : Fin 5000) (q : Fin 64) (r : Fin 100000) (hr : r.val = 5000 * t.val + p.val) :
    (((cfg0.win 2).blk t).view.emb (ix2 p q) : S100000x64.Idx) = ix2 r q := by
  obtain ⟨-, -, -, -, e0, e1⟩ := idx_facts t
  refine funext fun a => Fin.ext ?_
  match a with
  | ⟨0, _⟩ => show win0_2.index t (0 : Fin 2) * 5000 + 1 * p.val = r.val; rw [e0, hr]; omega
  | ⟨1, _⟩ => show win0_2.index t (1 : Fin 2) * 64 + 1 * q.val = q.val; rw [e1]; omega

/-- What point `t` stores is the block of the whole product at the output block's position. -/
theorem block_eq (c : Dev nD) (t : Fin cfg0.N) (j : S5000x64.Idx) :
    k0_pay1 (iblk0 V c 0 t) (iblk0 V c 1 t) j
      = prod (V c main_arg0 : Arr 100000 128) (V c main_arg3 : Arr 128 64) (((cfg0.win 2).blk t).view.emb j) := by
  obtain ⟨p, q, rfl⟩ : ∃ (p : Fin 5000) (q : Fin 64), j = ix2 p q := ⟨j 0, j 1, eq_ix2 j⟩
  have hN : cfg0.N = 20 := N_0
  have ht : t.val < 20 := hN ▸ t.isLt
  have hr : (⟨5000 * t.val + p.val, by have := p.isLt; omega⟩ : Fin 100000).val = 5000 * t.val + p.val := rfl
  rw [pay_apply, emb_out t p q _ hr, prod_apply]
  refine Finset.sum_congr rfl fun k _ => ?_
  rw [read_lhs V c t p k _ hr, read_rhs V c t k q]

/-- WHAT POINT `t` WRITES BACK is block `t` of the product of the arrays the launch finds. -/
theorem flushed_eq (c : Dev nD) (t : Fin cfg0.N) :
    (dat0 V c).flushed 2 t = ((cfg0.win 2).blk t).view.read (Elt Ideal) (prod (V c main_arg0 : Arr 100000 128) (V c main_arg3 : Arr 128 64)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  funext j
  exact block_eq V c t j

/-- An index of the output is in point `t`'s block iff its row is among the block's rows. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- THE OUTPUT ARRAY after the launch is the whole product: row `r` is written by point `r / 5000`. -/
theorem final (c : Dev nD) :
    (dat0 V c).arrAt 2 cfg0.N = prod (V c main_arg0 : Arr 100000 128) (V c main_arg3 : Arr 128 64) :=
  (dat0 V c).arrAt_eq_of_cover 2 _ (fun t _ => flushed_eq V c t) fun i => by
    have hN : cfg0.N = 20 := N_0
    have hi0 : (i 0).val < 100000 := (i 0).isLt
    have hi1 : (i 1).val < 64 := (i 1).isLt
    refine ⟨⟨(i 0).val / 5000, by rw [hN]; omega⟩, flush0_2 _, ?_⟩
    rw [mem_blk]
    obtain ⟨-, -, -, -, e0, e1⟩ := idx_facts ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e0]; dsimp only; omega
    | ⟨1, _⟩ => show win0_2.index _ (1 : Fin 2) * 64 ≤ (i 1).val ∧ (i 1).val < win0_2.index _ (1 : Fin 2) * 64 + 64; rw [e1]; omega

end Cert.KernelIdeal.Launch0

end
-- ==== Proof.Launch1.lean ====
/-
  A fused layer launch: to every row of the [100000,64] aggregated features add the [1,64] bias row, clamp at
  zero, and multiply by the [64,64] weights, 5000 rows at a time.  Point `t` of the grid loads rows
  `5000·t … 5000·t + 4999` of the features, the bias row and the whole weight matrix; the change of float
  format before the product is the identity on extended reals and the product accumulates into zero.  The
  twenty blocks tile the output, so the output array ends as the whole layer `prod (act a b) W`.
-/
import proofs.«130600_j25237227831713_1_alg».proof.Proof.Gen.KernelIdeal.Frame
import proofs.«130600_j25237227831713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Launch1

open Cert.KernelIdeal Cert.KernelIdeal.Gen Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- The launch's contraction: rows by columns over the 64 hidden columns. -/
abbrev DD : DotDims S5000x64 S64x64 S5000x64 := dot_S5000x64_S64x64_S5000x64_1_0_0_1_n_n

theorem lhs0 (i : S5000x64.Idx) (q : DD.contr.Idx) : (DD.lhsIdx i q 0).val = (i 0).val := by
  unfold DotDims.lhsIdx
  rw [dif_neg (show ¬(0 : Fin S5000x64.rank) ∈ DD.lhsBatch by decide), dif_pos (show (0 : Fin S5000x64.rank) ∈ DD.lhsNonContracting by decide)]
  rfl
theorem lhs1 (i : S5000x64.Idx) (q : DD.contr.Idx) : (DD.lhsIdx i q 1).val = (q ⟨0, by decide⟩).val :=
  DD.lhsIdx_val_of_single rfl i q
theorem rhs0 (i : S5000x64.Idx) (q : DD.contr.Idx) : (DD.rhsIdx i q 0).val = (q ⟨0, by decide⟩).val :=
  DD.rhsIdx_val_of_single rfl i q
theorem rhs1 (i : S5000x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

/-- What one grid point stores, entry by entry: row `p` of its block, biased and clamped, times column `q` of
    the weights. -/
theorem pay_apply (x0 : Vec Ideal S5000x64 .f32) (x1 : Vec Ideal S1x64 .f32) (x2 : Vec Ideal S64x64 .f32) (p : Fin 5000) (q : Fin 64) :
    k1_pay1 x0 x1 x2 (ix2 p q) = ∑ k : Fin 64, max (x0 (ix2 p k) + x1 (ix2 (0 : Fin 1) k)) 0 * x2 (ix2 k q) := by
  refine (Ideal.matmul_constant_zero_apply DD none _ _ (ix2 p q)).trans ?_
  rw [← Equiv.sum_comp (contrEquiv1 DD 64 rfl rfl).symm]
  refine Finset.sum_congr rfl fun k _ => ?_
  have hk := contrEquiv1_symm_val DD 64 rfl rfl k
  have el : DD.lhsIdx (ix2 p q) ((contrEquiv1 DD 64 rfl rfl).symm k) = ix2 p k := funext fun a => Fin.ext (by
    match a with
    | ⟨0, _⟩ => exact lhs0 _ _
    | ⟨1, _⟩ => exact (lhs1 _ _).trans hk)
  have er : DD.rhsIdx (ix2 p q) ((contrEquiv1 DD 64 rfl rfl).symm k) = ix2 k q := funext fun a => Fin.ext (by
    match a with
    | ⟨0, _⟩ => exact (rhs0 _ _).trans hk
    | ⟨1, _⟩ => exact rhs1 _ _)
  show max (shapeCast S5000x64 x0 shapeCasts_S5000x64_S5000x64 (DD.lhsIdx _ _)
        + broadcastTo S5000x64 (shapeCast S1x64 x1 shapeCasts_S1x64_S1x64) broadcasts_S1x64_S5000x64 (DD.lhsIdx _ _))
      (Ideal.ofBits .f32 0x00000000#32) * x2 (DD.rhsIdx _ _) = _
  rw [el, er, shapeCast_self, shapeCast_self, broadcastTo_1b_ab_apply, Ideal.ofBits_zero_f32]

/-- Where each window's block sits at grid point `t`: the features' and the output's blocks are the `t`-th
    block of rows; the bias row and the weights are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point `t` is rows `5000·t …` of the features as the launch finds them. -/
theorem read_a (c : Dev nD) (t : Fin cfg1.N) (p : Fin 5000) (k : Fin 64) (r : Fin 100000) (hr : r.val = 5000 * t.val + p.val) :
    (iblk1 V c 0 t : Vec Ideal S5000x64 .f32) (ix2 p k) = (V c main_v43 : Arr 100000 64) (ix2 r k) := by
  obtain ⟨e0, e1, -⟩ := idx_facts t
  unfold iblk1
  rw [View.read_apply]
  show V c main_v43 (((cfg1.win 0).blk t).view.emb (ix2 p k)) = V c main_v43 _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The bias window's block at every point is the whole bias row. -/
theorem read_b (c : Dev nD) (t : Fin cfg1.N) (k : Fin 64) :
    (iblk1 V c 1 t : Vec Ideal S1x64 .f32) (ix2 (0 : Fin 1) k) = (V c main_v44 : Arr 1 64) (ix2 (0 : Fin 1) k) := by
  obtain ⟨-, -, e0, e1, -⟩ := idx_facts t
  unfold iblk1
  rw [View.read_apply]
  show V c main_v44 (((cfg1.win 1).blk t).view.emb (ix2 (0 : Fin 1) k)) = V c main_v44 _
  refine congrArg _ (funext fun a => Fin.ext ?_)
  match a with
  | ⟨0, _⟩ => show win1_1.index t (0 : Fin 2) * 1 + 1 * 0 = 0; rw [e0]
  | ⟨1, _⟩ => show win1_1.index t (1 : Fin 2) * 64 + 1 * k.val = k.val; rw [e1]; omega

/-- The weights' block at every point is the whole weight matrix. -/
theorem read_w (c : Dev nD) (t : Fin cfg1.N) (k : Fin 64) (q : Fin 64) :
    (iblk1 V c 2 t : Vec Ideal S64x64 .f32) (ix2 k q) = (V c main_arg5 : Arr 64 64) (ix2 k q) := by
  obtain ⟨-, -, -, -, e0, e1, -⟩ := idx_facts t
  unfold iblk1
  rw [View.read_apply]
  show V c main_arg5 (((cfg1.win 2).blk t).view.emb (ix2 k q)) = V c main_arg5 _
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Entry (p, q) of the output's block at point `t` is entry (5000·t + p, q) of the output array. -/
theorem emb_out (t : Fin cfg1.N) (p : Fin 5000) (q : Fin 64) (r : Fin 100000) (hr : r.val = 5000 * t.val + p.val) :
    (((cfg1.win 3).blk t).view.emb (ix2 p q) : S100000x64.Idx) = ix2 r q := by
  obtain ⟨-, -, -, -, -, -, e0, e1⟩ := idx_facts t
  refine funext fun a => Fin.ext ?_
  match a with
  | ⟨0, _⟩ => show win1_3.index t (0 : Fin 2) * 5000 + 1 * p.val = r.val; rw [e0, hr]; omega
  | ⟨1, _⟩ => show win1_3.index t (1 : Fin 2) * 64 + 1 * q.val = q.val; rw [e1]; omega

/-- What point `t` stores is the block of the whole layer at the output block's position. -/
theorem block_eq (c : Dev nD) (t : Fin cfg1.N) (j : S5000x64.Idx) :
    k1_pay1 (iblk1 V c 0 t) (iblk1 V c 1 t) (iblk1 V c 2 t) j
      = prod (act (V c main_v43 : Arr 100000 64) (V c main_v44 : Arr 1 64)) (V c main_arg5 : Arr 64 64) (((cfg1.win 3).blk t).view.emb j) := by
  obtain ⟨p, q, rfl⟩ : ∃ (p : Fin 5000) (q : Fin 64), j = ix2 p q := ⟨j 0, j 1, eq_ix2 j⟩
  have hN : cfg1.N = 20 := N_1
  have ht : t.val < 20 := hN ▸ t.isLt
  have hr : (⟨5000 * t.val + p.val, by have := p.isLt; omega⟩ : Fin 100000).val = 5000 * t.val + p.val := rfl
  rw [pay_apply, emb_out t p q _ hr, prod_apply]
  refine Finset.sum_congr rfl fun k _ => ?_
  rw [act_apply, read_a V c t p k _ hr, read_b V c t k, read_w V c t k q]

/-- WHAT POINT `t` WRITES BACK is block `t` of the layer of the arrays the launch finds. -/
theorem flushed_eq (c : Dev nD) (t : Fin cfg1.N) :
    (dat1 V c).flushed 3 t = ((cfg1.win 3).blk t).view.read (Elt Ideal)
      (prod (act (V c main_v43 : Arr 100000 64) (V c main_v44 : Arr 1 64)) (V c main_arg5 : Arr 64 64)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  funext j
  exact block_eq V c t j

/-- An index of the output is in point `t`'s block iff its row is among the block's rows. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- THE OUTPUT ARRAY after the launch is the whole layer: row `r` is written by point `r / 5000`. -/
theorem final (c : Dev nD) :
    (dat1 V c).arrAt 3 cfg1.N = prod (act (V c main_v43 : Arr 100000 64) (V c main_v44 : Arr 1 64)) (V c main_arg5 : Arr 64 64) :=
  (dat1 V c).arrAt_eq_of_cover 3 _ (fun t _ => flushed_eq V c t) fun i => by
    have hN : cfg1.N = 20 := N_1
    have hi0 : (i 0).val < 100000 := (i 0).isLt
    have hi1 : (i 1).val < 64 := (i 1).isLt
    refine ⟨⟨(i 0).val / 5000, by rw [hN]; omega⟩, flush1_3 _, ?_⟩
    rw [mem_blk]
    obtain ⟨-, -, -, -, -, -, e0, e1⟩ := idx_facts ⟨(i 0).val / 5000, by rw [hN]; omega⟩
    intro a
    match a with
    | ⟨0, _⟩ => show win1_3.index _ (0 : Fin 2) * 5000 ≤ (i 0).val ∧ (i 0).val < win1_3.index _ (0 : Fin 2) * 5000 + 5000; rw [e0]; dsimp only; omega
    | ⟨1, _⟩ => show win1_3.index _ (1 : Fin 2) * 64 ≤ (i 1).val ∧ (i 1).val < win1_3.index _ (1 : Fin 2) * 64 + 64; rw [e1]; omega

end Cert.KernelIdeal.Launch1

end
-- ==== Proof.Launch2.lean ====
/-
  A fused layer launch: to every row of the [100000,64] aggregated features add the [1,64] bias row, clamp at
  zero, and multiply by the [64,64] weights, 5000 rows at a time.  Point `t` of the grid loads rows
  `5000·t … 5000·t + 4999` of the features, the bias row and the whole weight matrix; the change of float
  format before the product is the identity on extended reals and the product accumulates into zero.  The
  twenty blocks tile the output, so the output array ends as the whole layer `prod (act a b) W`.
-/
import proofs.«130600_j25237227831713_1_alg».proof.Proof.Gen.KernelIdeal.Frame
import proofs.«130600_j25237227831713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Launch2

open Cert.KernelIdeal Cert.KernelIdeal.Gen Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- The launch's contraction: rows by columns over the 64 hidden columns. -/
abbrev DD : DotDims S5000x64 S64x64 S5000x64 := dot_S5000x64_S64x64_S5000x64_1_0_0_1_n_n

theorem lhs0 (i : S5000x64.Idx) (q : DD.contr.Idx) : (DD.lhsIdx i q 0).val = (i 0).val := by
  unfold DotDims.lhsIdx
  rw [dif_neg (show ¬(0 : Fin S5000x64.rank) ∈ DD.lhsBatch by decide), dif_pos (show (0 : Fin S5000x64.rank) ∈ DD.lhsNonContracting by decide)]
  rfl
theorem lhs1 (i : S5000x64.Idx) (q : DD.contr.Idx) : (DD.lhsIdx i q 1).val = (q ⟨0, by decide⟩).val :=
  DD.lhsIdx_val_of_single rfl i q
theorem rhs0 (i : S5000x64.Idx) (q : DD.contr.Idx) : (DD.rhsIdx i q 0).val = (q ⟨0, by decide⟩).val :=
  DD.rhsIdx_val_of_single rfl i q
theorem rhs1 (i : S5000x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

/-- What one grid point stores, entry by entry: row `p` of its block, biased and clamped, times column `q` of
    the weights. -/
theorem pay_apply (x0 : Vec Ideal S5000x64 .f32) (x1 : Vec Ideal S1x64 .f32) (x2 : Vec Ideal S64x64 .f32) (p : Fin 5000) (q : Fin 64) :
    k2_pay1 x0 x1 x2 (ix2 p q) = ∑ k : Fin 64, max (x0 (ix2 p k) + x1 (ix2 (0 : Fin 1) k)) 0 * x2 (ix2 k q) := by
  refine (Ideal.matmul_constant_zero_apply DD none _ _ (ix2 p q)).trans ?_
  rw [← Equiv.sum_comp (contrEquiv1 DD 64 rfl rfl).symm]
  refine Finset.sum_congr rfl fun k _ => ?_
  have hk := contrEquiv1_symm_val DD 64 rfl rfl k
  have el : DD.lhsIdx (ix2 p q) ((contrEquiv1 DD 64 rfl rfl).symm k) = ix2 p k := funext fun a => Fin.ext (by
    match a with
    | ⟨0, _⟩ => exact lhs0 _ _
    | ⟨1, _⟩ => exact (lhs1 _ _).trans hk)
  have er : DD.rhsIdx (ix2 p q) ((contrEquiv1 DD 64 rfl rfl).symm k) = ix2 k q := funext fun a => Fin.ext (by
    match a with
    | ⟨0, _⟩ => exact (rhs0 _ _).trans hk
    | ⟨1, _⟩ => exact rhs1 _ _)
  show max (shapeCast S5000x64 x0 shapeCasts_S5000x64_S5000x64 (DD.lhsIdx _ _)
        + broadcastTo S5000x64 (shapeCast S1x64 x1 shapeCasts_S1x64_S1x64) broadcasts_S1x64_S5000x64 (DD.lhsIdx _ _))
      (Ideal.ofBits .f32 0x00000000#32) * x2 (DD.rhsIdx _ _) = _
  rw [el, er, shapeCast_self, shapeCast_self, broadcastTo_1b_ab_apply, Ideal.ofBits_zero_f32]

/-- Where each window's block sits at grid point `t`: the features' and the output's blocks are the `t`-th
    block of rows; the bias row and the weights are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point `t` is rows `5000·t …` of the features as the launch finds them. -/
theorem read_a (c : Dev nD) (t : Fin cfg2.N) (p : Fin 5000) (k : Fin 64) (r : Fin 100000) (hr : r.val = 5000 * t.val + p.val) :
    (iblk2 V c 0 t : Vec Ideal S5000x64 .f32) (ix2 p k) = (V c main_v58 : Arr 100000 64) (ix2 r k) := by
  obtain ⟨e0, e1, -⟩ := idx_facts t
  unfold iblk2
  rw [View.read_apply]
  show V c main_v58 (((cfg2.win 0).blk t).view.emb (ix2 p k)) = V c main_v58 _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The bias window's block at every point is the whole bias row. -/
theorem read_b (c : Dev nD) (t : Fin cfg2.N) (k : Fin 64) :
    (iblk2 V c 1 t : Vec Ideal S1x64 .f32) (ix2 (0 : Fin 1) k) = (V c main_v59 : Arr 1 64) (ix2 (0 : Fin 1) k) := by
  obtain ⟨-, -, e0, e1, -⟩ := idx_facts t
  unfold iblk2
  rw [View.read_apply]
  show V c main_v59 (((cfg2.win 1).blk t).view.emb (ix2 (0 : Fin 1) k)) = V c main_v59 _
  refine congrArg _ (funext fun a => Fin.ext ?_)
  match a with
  | ⟨0, _⟩ => show win2_1.index t (0 : Fin 2) * 1 + 1 * 0 = 0; rw [e0]
  | ⟨1, _⟩ => show win2_1.index t (1 : Fin 2) * 64 + 1 * k.val = k.val; rw [e1]; omega

/-- The weights' block at every point is the whole weight matrix. -/
theorem read_w (c : Dev nD) (t : Fin cfg2.N) (k : Fin 64) (q : Fin 64) :
    (iblk2 V c 2 t : Vec Ideal S64x64 .f32) (ix2 k q) = (V c main_arg7 : Arr 64 64) (ix2 k q) := by
  obtain ⟨-, -, -, -, e0, e1, -⟩ := idx_facts t
  unfold iblk2
  rw [View.read_apply]
  show V c main_arg7 (((cfg2.win 2).blk t).view.emb (ix2 k q)) = V c main_arg7 _
  refine congrArg _ (funext fun a => Fin.ext ?_)
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- Entry (p, q) of the output's block at point `t` is entry (5000·t + p, q) of the output array. -/
theorem emb_out (t : Fin cfg2.N) (p : Fin 5000) (q : Fin 64) (r : Fin 100000) (hr : r.val = 5000 * t.val + p.val) :
    (((cfg2.win 3).blk t).view.emb (ix2 p q) : S100000x64.Idx) = ix2 r q := by
  obtain ⟨-, -, -, -, -, -, e0, e1⟩ := idx_facts t
  refine funext fun a => Fin.ext ?_
  match a with
  | ⟨0, _⟩ => show win2_3.index t (0 : Fin 2) * 5000 + 1 * p.val = r.val; rw [e0, hr]; omega
  | ⟨1, _⟩ => show win2_3.index t (1 : Fin 2) * 64 + 1 * q.val = q.val; rw [e1]; omega

/-- What point `t` stores is the block of the whole layer at the output block's position. -/
theorem block_eq (c : Dev nD) (t : Fin cfg2.N) (j : S5000x64.Idx) :
    k2_pay1 (iblk2 V c 0 t) (iblk2 V c 1 t) (iblk2 V c 2 t) j
      = prod (act (V c main_v58 : Arr 100000 64) (V c main_v59 : Arr 1 64)) (V c main_arg7 : Arr 64 64) (((cfg2.win 3).blk t).view.emb j) := by
  obtain ⟨p, q, rfl⟩ : ∃ (p : Fin 5000) (q : Fin 64), j = ix2 p q := ⟨j 0, j 1, eq_ix2 j⟩
  have hN : cfg2.N = 20 := N_2
  have ht : t.val < 20 := hN ▸ t.isLt
  have hr : (⟨5000 * t.val + p.val, by have := p.isLt; omega⟩ : Fin 100000).val = 5000 * t.val + p.val := rfl
  rw [pay_apply, emb_out t p q _ hr, prod_apply]
  refine Finset.sum_congr rfl fun k _ => ?_
  rw [act_apply, read_a V c t p k _ hr, read_b V c t k, read_w V c t k q]

/-- WHAT POINT `t` WRITES BACK is block `t` of the layer of the arrays the launch finds. -/
theorem flushed_eq (c : Dev nD) (t : Fin cfg2.N) :
    (dat2 V c).flushed 3 t = ((cfg2.win 3).blk t).view.read (Elt Ideal)
      (prod (act (V c main_v58 : Arr 100000 64) (V c main_v59 : Arr 1 64)) (V c main_arg7 : Arr 64 64)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x64) hz]
  funext j
  exact block_eq V c t j

/-- An index of the output is in point `t`'s block iff its row is among the block's rows. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v60).slice (win2_3.rect t)).set ↔ _
  rw [View.set_slice_whole, Rect.mem_set_unit]
  exact Iff.rfl

/-- THE OUTPUT ARRAY after the launch is the whole layer: row `r` is written by point `r / 5000`. -/
theorem final (c : Dev nD) :
    (dat2 V c).arrAt 3 cfg2.N = prod (act (V c main_v58 : Arr 100000 64) (V c main_v59 : Arr 1 64)) (V c main_arg7 : Arr 64 64) :=
  (dat2 V c).arrAt_eq_of_cover 3 _ (fun t _ => flushed_eq V c t) fun i => by
    have hN : cfg2.N = 20 := N_2
    have hi0 : (i 0).val < 100000 := (i 0).isLt
    have hi1 : (i 1).val < 64 := (i 1).isLt
    refine ⟨⟨(i 0).val / 5000, by rw [hN]; omega⟩, flush2_3 _, ?_⟩
    rw [mem_blk]
    obtain ⟨-, -, -, -, -, -, e0, e1⟩ := idx_facts ⟨(i 0).val / 5000, by rw [hN]; omega⟩
    intro a
    match a with
    | ⟨0, _⟩ => show win2_3.index _ (0 : Fin 2) * 5000 ≤ (i 0).val ∧ (i 0).val < win2_3.index _ (0 : Fin 2) * 5000 + 5000; rw [e0]; dsimp only; omega
    | ⟨1, _⟩ => show win2_3.index _ (1 : Fin 2) * 64 ≤ (i 1).val ∧ (i 1).val < win2_3.index _ (1 : Fin 2) * 64 + 64; rw [e1]; omega

end Cert.KernelIdeal.Launch2

end
-- ==== Proof.Launch3.lean ====
/-
  The last launch: to every row of the [100000,64] aggregated features add the [1,64] bias row and clamp at
  zero, 5000 rows at a time.  Point `t` of the grid loads rows `5000·t … 5000·t + 4999` and the bias row and
  writes the result to the same rows of the output; the twenty blocks tile the output, so the output array
  ends as `act a b`.
-/
import proofs.«130600_j25237227831713_1_alg».proof.Proof.Gen.KernelIdeal.Frame
import proofs.«130600_j25237227831713_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Launch3

open Cert.KernelIdeal Cert.KernelIdeal.Gen Idealize.ShloMosaic.ValueIdx Cert.Spec

variable (V : (c : Dev nD) → (b : Ref sig .tc) → Buf (Elt Ideal) ((c : Thread nD τ).loc b))

theorem hz : (![0, 0] : Fin 2 → Nat) = fun _ => 0 := funext fun a => by fin_cases a <;> rfl

/-- What one grid point stores, entry by entry. -/
theorem pay_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) 0 := by
  show max (shapeCast S5000x64 x0 shapeCasts_S5000x64_S5000x64 (ix2 p q)
        + broadcastTo S5000x64 (shapeCast S1x64 x1 shapeCasts_S1x64_S1x64) broadcasts_S1x64_S5000x64 (ix2 p q))
      (Ideal.ofBits .f32 0x00000000#32) = _
  rw [shapeCast_self, shapeCast_self, broadcastTo_1b_ab_apply, Ideal.ofBits_zero_f32]

/-- Where each window's block sits at grid point `t`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point `t` is rows `5000·t …` of the features as the launch finds them. -/
theorem read_a (c : Dev nD) (t : Fin cfg3.N) (p : Fin 5000) (k : Fin 64) (r : Fin 100000) (hr : r.val = 5000 * t.val + p.val) :
    (iblk3 V c 0 t : Vec Ideal S5000x64 .f32) (ix2 p k) = (V c main_v73 : Arr 100000 64) (ix2 r k) := by
  obtain ⟨e0, e1, -⟩ := idx_facts t
  unfold iblk3
  rw [View.read_apply]
  show V c main_v73 (((cfg3.win 0).blk t).view.emb (ix2 p k)) = V c main_v73 _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- The bias window's block at every point is the whole bias row. -/
theorem read_b (c : Dev nD) (t : Fin cfg3.N) (k : Fin 64) :
    (iblk3 V c 1 t : Vec Ideal S1x64 .f32) (ix2 (0 : Fin 1) k) = (V c main_v74 : Arr 1 64) (ix2 (0 : Fin 1) k) := by
  obtain ⟨-, -, e0, e1, -⟩ := idx_facts t
  unfold iblk3
  rw [View.read_apply]
  show V c main_v74 (((cfg3.win 1).blk t).view.emb (ix2 (0 : Fin 1) k)) = V c main_v74 _
  refine congrArg _ (funext fun a => Fin.ext ?_)
  match a with
  | ⟨0, _⟩ => show win3_1.index t (0 : Fin 2) * 1 + 1 * 0 = 0; rw [e0]
  | ⟨1, _⟩ => show win3_1.index t (1 : Fin 2) * 64 + 1 * k.val = k.val; rw [e1]; omega

/-- Entry (p, q) of the output's block at point `t` is entry (5000·t + p, q) of the output array. -/
theorem emb_out (t : Fin cfg3.N) (p : Fin 5000) (q : Fin 64) (r : Fin 100000) (hr : r.val = 5000 * t.val + p.val) :
    (((cfg3.win 2).blk t).view.emb (ix2 p q) : S100000x64.Idx) = ix2 r q := by
  obtain ⟨-, -, -, -, e0, e1⟩ := idx_facts t
  refine funext fun a => Fin.ext ?_
  match a with
  | ⟨0, _⟩ => show win3_2.index t (0 : Fin 2) * 5000 + 1 * p.val = r.val; rw [e0, hr]; omega
  | ⟨1, _⟩ => show win3_2.index t (1 : Fin 2) * 64 + 1 * q.val = q.val; rw [e1]; omega

/-- What point `t` stores is the block of the whole array function at the output block's position. -/
theorem block_eq (c : Dev nD) (t : Fin cfg3.N) (j : S5000x64.Idx) :
    k3_pay1 (iblk3 V c 0 t) (iblk3 V c 1 t) j
      = act (V c main_v73 : Arr 100000 64) (V c main_v74 : Arr 1 64) (((cfg3.win 2).blk t).view.emb j) := by
  obtain ⟨p, q, rfl⟩ : ∃ (p : Fin 5000) (q : Fin 64), j = ix2 p q := ⟨j 0, j 1, eq_ix2 j⟩
  have hN : cfg3.N = 20 := N_3
  have ht : t.val < 20 := hN ▸ t.isLt
  have hr : (⟨5000 * t.val + p.val, by have := p.isLt; omega⟩ : Fin 100000).val = 5000 * t.val + p.val := rfl
  rw [pay_apply, emb_out t p q _ hr, act_apply, read_a V c t p q _ hr, read_b V c t q]

/-- WHAT POINT `t` WRITES BACK is block `t` of the biased, clamped array. -/
theorem flushed_eq (c : Dev nD) (t : Fin cfg3.N) :
    (dat3 V c).flushed 2 t = ((cfg3.win 2).blk t).view.read (Elt Ideal)
      (act (V c main_v73 : Arr 100000 64) (V c main_v74 : Arr 1 64)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  funext j
  exact block_eq V c t j

/-- An index of the output is in point `t`'s block iff its row is among the block's rows. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v75).slice (win3_2.rect t)).set ↔ _
  rw [View.set_slice_whole, Rect.mem_set_unit]
  exact Iff.rfl

/-- THE OUTPUT ARRAY after the launch: row `r` is written by point `r / 5000`. -/
theorem final (c : Dev nD) :
    (dat3 V c).arrAt 2 cfg3.N = act (V c main_v73 : Arr 100000 64) (V c main_v74 : Arr 1 64) :=
  (dat3 V c).arrAt_eq_of_cover 2 _ (fun t _ => flushed_eq V c t) fun i => by
    have hN : cfg3.N = 20 := N_3
    have hi0 : (i 0).val < 100000 := (i 0).isLt
    have hi1 : (i 1).val < 64 := (i 1).isLt
    refine ⟨⟨(i 0).val / 5000, by rw [hN]; omega⟩, flush3_2 _, ?_⟩
    rw [mem_blk]
    obtain ⟨-, -, -, -, e0, e1⟩ := idx_facts ⟨(i 0).val / 5000, by rw [hN]; omega⟩
    intro a
    match a with
    | ⟨0, _⟩ => show win3_2.index _ (0 : Fin 2) * 5000 ≤ (i 0).val ∧ (i 0).val < win3_2.index _ (0 : Fin 2) * 5000 + 5000; rw [e0]; dsimp only; omega
    | ⟨1, _⟩ => show win3_2.index _ (1 : Fin 2) * 64 ≤ (i 1).val ∧ (i 1).val < win3_2.index _ (1 : Fin 2) * 64 + 64; rw [e1]; omega

end Cert.KernelIdeal.Launch3

end
-- ==== Proof.RefBridge.lean ====
/-
  The reference's layers as the shared whole-array functions.

  The reference computes a layer with host operations over whole arrays: a bias vector is broadcast to a row and
  then over all rows and added, the sum is clamped at zero by a maximum with a broadcast zero, and a
  `dot_general` contracts the feature axis.  Read at an index these are exactly `act` and `prod`.
-/
import proofs.«130600_j25237227831713_1_alg».proof.Proof.RefReadP
import proofs.«130600_j25237227831713_1_alg».proof.Proof.Spec

noncomputable section

open Idealize.ShloMosaic Idealize.ShloMosaic.TcCoe Idealize.SL.Sem

namespace Cert.ReferenceIdeal.Bridge

open Cert.ReferenceIdeal Cert.ReferenceIdeal.ReadP Idealize.ShloMosaic.ValueIdx Cert.Spec

/-- The reference's matrix product of layer 1 is `prod`. -/
theorem dot1_eq (x0 : _) (x3 : _) :
    val_main_v30 (F := Ideal) x0 x3 = prod (x0 : Arr 100000 128) (x3 : Arr 128 64) := by
  funext i
  obtain ⟨p, q, rfl⟩ : ∃ (p : Fin 100000) (q : Fin 64), i = ix2 p q := ⟨i 0, i 1, eq_ix2 i⟩
  rw [val_main_v30_apply, prod_apply]
  refine Finset.sum_congr rfl fun k _ => ?_
  have el : lidx_main_v30 (ix2 p q) k = ix2 p k := funext fun a => by
    match a with
    | ⟨0, _⟩ => rfl
    | ⟨1, _⟩ => rfl
  have er : ridx_main_v30 (ix2 p q) k = ix2 k q := funext fun a => by
    match a with
    | ⟨0, _⟩ => rfl
    | ⟨1, _⟩ => rfl
  rw [el, er]

/-! ## Layer 1 of the reference -/

/-- The bias broadcast over the rows reads, at (p, q), entry q of the bias vector. -/
theorem bias1_apply (x4 : (⟨S64, .f32⟩ : BufTy).Contents (Elt Ideal)) (p : Fin 100000) (q : Fin 64) :
    val_main_v45 (F := Ideal) x4 (ix2 p q) = x4 (ix1 q) := by
  rw [val_main_v45_apply, val_main_v44_apply]
  refine congrArg x4 (funext fun a => ?_)
  match a with
  | ⟨0, _⟩ => rfl

/-- The reference's "add the bias, clamp at zero" is `act` of the aggregated features and the bias as a row. -/
theorem relu1_eq (x0 : _) (x1 : _) (x3 : _) (x4 : _) :
    val_main_v47 (F := Ideal) x0 x1 x3 x4 = act (val_main_v43 (F := Ideal) x0 x1 x3 : Arr 100000 64) (asRow x4) := by
  funext i
  obtain ⟨p, q, rfl⟩ : ∃ (p : Fin 100000) (q : Fin 64), i = ix2 p q := ⟨i 0, i 1, eq_ix2 i⟩
  rw [val_main_v47_apply, val_main_v46_apply, bias1_apply, val_main_call1_v0_apply, val_main_call1_cst_apply, act_apply, asRow_apply]
  show max (_ + _) (Ideal.ofBits .f32 0x00000000#32) = _
  rw [Ideal.ofBits_zero_f32]

/-- The reference's matrix product of layer 1b is `prod`. -/
theorem dot1b_eq (x0 : _) (x1 : _) (x3 : _) (x4 : _) (x5 : _) :
    val_main_v48 (F := Ideal) x0 x1 x3 x4 x5 = prod (val_main_v47 (F := Ideal) x0 x1 x3 x4 : Arr 100000 64) (x5 : Arr 64 64) := by
  funext i
  obtain ⟨p, q, rfl⟩ : ∃ (p : Fin 100000) (q : Fin 64), i = ix2 p q := ⟨i 0, i 1, eq_ix2 i⟩
  rw [val_main_v48_apply, prod_apply]
  refine Finset.sum_congr rfl fun k _ => ?_
  have el : lidx_main_v48 (ix2 p q) k = ix2 p k := funext fun a => by
    match a with
    | ⟨0, _⟩ => rfl
    | ⟨1, _⟩ => rfl
  have er : ridx_main_v48 (ix2 p q) k = ix2 k q := funext fun a => by
    match a with
    | ⟨0, _⟩ => rfl
    | ⟨1, _⟩ => rfl
  rw [el, er]

/-! ## Layer 2 of the reference -/

/-- The bias broadcast over the rows reads, at (p, q), entry q of the bias vector. -/
theorem bias2_apply (x6 : (⟨S64, .f32⟩ : BufTy).Contents (Elt Ideal)) (p : Fin 100000) (q : Fin 64) :
    val_main_v63 (F := Ideal) x6 (ix2 p q) = x6 (ix1 q) := by
  rw [val_main_v63_apply, val_main_v62_apply]
  refine congrArg x6 (funext fun a => ?_)
  match a with
  | ⟨0, _⟩ => rfl

/-- The reference's "add the bias, clamp at zero" is `act` of the aggregated features and the bias as a row. -/
theorem relu2_eq (x0 : _) (x1 : _) (x3 : _) (x4 : _) (x5 : _) (x6 : _) :
    val_main_v65 (F := Ideal) x0 x1 x3 x4 x5 x6 = act (val_main_v61 (F := Ideal) x0 x1 x3 x4 x5 : Arr 100000 64) (asRow x6) := by
  funext i
  obtain ⟨p, q, rfl⟩ : ∃ (p : Fin 100000) (q : Fin 64), i = ix2 p q := ⟨i 0, i 1, eq_ix2 i⟩
  rw [val_main_v65_apply, val_main_v64_apply, bias2_apply, val_main_call2_v0_apply, val_main_call2_cst_apply, act_apply, asRow_apply]
  show max (_ + _) (Ideal.ofBits .f32 0x00000000#32) = _
  rw [Ideal.ofBits_zero_f32]

/-- The reference's matrix product of layer 2b is `prod`. -/
theorem dot2b_eq (x0 : _) (x1 : _) (x3 : _) (x4 : _) (x5 : _) (x6 : _) (x7 : _) :
    val_main_v66 (F := Ideal) x0 x1 x3 x4 x5 x6 x7 = prod (val_main_v65 (F := Ideal) x0 x1 x3 x4 x5 x6 : Arr 100000 64) (x7 : Arr 64 64) := by
  funext i
  obtain ⟨p, q, rfl⟩ : ∃ (p : Fin 100000) (q : Fin 64), i = ix2 p q := ⟨i 0, i 1, eq_ix2 i⟩
  rw [val_main_v66_apply, prod_apply]
  refine Finset.sum_congr rfl fun k _ => ?_
  have el : lidx_main_v66 (ix2 p q) k = ix2 p k := funext fun a => by
    match a with
    | ⟨0, _⟩ => rfl
    | ⟨1, _⟩ => rfl
  have er : ridx_main_v66 (ix2 p q) k = ix2 k q := funext fun a => by
    match a with
    | ⟨0, _⟩ => rfl
    | ⟨1, _⟩ => rfl
  rw [el, er]

/-! ## Layer 3 of the reference -/

/-- The bias broadcast over the rows reads, at (p, q), entry q of the bias vector. -/
theorem bias3_apply (x8 : (⟨S64, .f32⟩ : BufTy).Contents (Elt Ideal)) (p : Fin 100000) (q : Fin 64) :
    val_main_v81 (F := Ideal) x8 (ix2 p q) = x8 (ix1 q) := by
  rw [val_main_v81_apply, val_main_v80_apply]
  refine congrArg x8 (funext fun a => ?_)
  match a with
  | ⟨0, _⟩ => rfl

/-- The reference's "add the bias, clamp at zero" is `act` of the aggregated features and the bias as a row. -/
theorem relu3_eq (x0 : _) (x1 : _) (x3 : _) (x4 : _) (x5 : _) (x6 : _) (x7 : _) (x8 : _) :
    val_main_v83 (F := Ideal) x0 x1 x3 x4 x5 x6 x7 x8 = act (val_main_v79 (F := Ideal) x0 x1 x3 x4 x5 x6 x7 : Arr 100000 64) (asRow x8) := by
  funext i
  obtain ⟨p, q, rfl⟩ : ∃ (p : Fin 100000) (q : Fin 64), i = ix2 p q := ⟨i 0, i 1, eq_ix2 i⟩
  rw [val_main_v83_apply, val_main_v82_apply, bias3_apply, val_main_call3_v0_apply, val_main_call3_cst_apply, act_apply, asRow_apply]
  show max (_ + _) (Ideal.ofBits .f32 0x00000000#32) = _
  rw [Ideal.ofBits_zero_f32]

end Cert.ReferenceIdeal.Bridge

end
-- ==== Proof.KernelValue.lean ====
/-
  The idealized kernel program's result as the reference's function of the arguments.

  Walking the program's eleven segments from the launch: the host operations before each grid launch are,
  operation for operation, the reference's own (the edge lists with self loops, the symmetric degree
  normalisation, and the gather / scale / scatter-add aggregation), so each buffer they leave is the
  reference's stage of the same name; each launch leaves its output array at the layer function of the arrays it
  finds (`prod`, `prod (act · ·) ·`, `act`), which is what the reference's `dot_general`, bias broadcast and
  clamp compute; and the pooling and classifier operations after the last launch are again the reference's own.
-/
import proofs.«130600_j25237227831713_1_alg».proof.Proof.Gen.KernelIdeal.Frame
import proofs.«130600_j25237227831713_1_alg».proof.Proof.Launch0
import proofs.«130600_j25237227831713_1_alg».proof.Proof.Launch1
import proofs.«130600_j25237227831713_1_alg».proof.Proof.Launch2
import proofs.«130600_j25237227831713_1_alg».proof.Proof.Launch3
import proofs.«130600_j25237227831713_1_alg».proof.Proof.RefBridge
import Idealize.ShloMosaic.Lib.StableHlo.Run
import Idealize.ShloMosaic.Lib.ValueLayout

set_option maxRecDepth 16384
set_option maxHeartbeats 4000000

noncomputable section

open Idealize.ShloMosaic Idealize.ShloMosaic.TcCoe Idealize.SL.Sem Idealize.ShloMosaic.StableHlo

namespace Cert.KernelIdeal.Walk

open Cert.KernelIdeal Cert.KernelIdeal.Gen Idealize.ShloMosaic.ValueIdx Cert.Spec
open Cert.ReferenceIdeal.ReadP Cert.ReferenceIdeal.Bridge

variable (m : (ℓ : Loc nD τ sig) → Buf (Elt Ideal) ℓ) (ρ : Dev nD → PrngReg) (c : Dev nD)

/-! ## Before the first launch: the edge lists and the normalisation -/

theorem arg0_W3 : W3 m ρ c (Proc.devRef .tc main_arg0) = (m ((c : Thread nD τ).loc main_arg0)) := by after_results_simp <;> rfl
theorem arg3_W3 : W3 m ρ c (Proc.devRef .tc main_arg3) = (m ((c : Thread nD τ).loc main_arg3)) := by after_results_simp <;> rfl
theorem arg4_W3 : W3 m ρ c (Proc.devRef .tc main_arg4) = (m ((c : Thread nD τ).loc main_arg4)) := by after_results_simp <;> rfl
theorem arg5_W3 : W3 m ρ c (Proc.devRef .tc main_arg5) = (m ((c : Thread nD τ).loc main_arg5)) := by after_results_simp <;> rfl
theorem arg6_W3 : W3 m ρ c (Proc.devRef .tc main_arg6) = (m ((c : Thread nD τ).loc main_arg6)) := by after_results_simp <;> rfl
theorem arg7_W3 : W3 m ρ c (Proc.devRef .tc main_arg7) = (m ((c : Thread nD τ).loc main_arg7)) := by after_results_simp <;> rfl
theorem arg8_W3 : W3 m ρ c (Proc.devRef .tc main_arg8) = (m ((c : Thread nD τ).loc main_arg8)) := by after_results_simp <;> rfl
theorem arg2_W3 : W3 m ρ c (Proc.devRef .tc main_arg2) = (m ((c : Thread nD τ).loc main_arg2)) := by after_results_simp <;> rfl
theorem arg9_W3 : W3 m ρ c (Proc.devRef .tc main_arg9) = (m ((c : Thread nD τ).loc main_arg9)) := by after_results_simp <;> rfl
theorem arg10_W3 : W3 m ρ c (Proc.devRef .tc main_arg10) = (m ((c : Thread nD τ).loc main_arg10)) := by after_results_simp <;> rfl

/-- The source list (edge sources, then every node once). -/
theorem src_W3 : W3 m ρ c (Proc.devRef .tc main_v3) = val_main_v3 (F := Ideal) (m ((c : Thread nD τ).loc main_arg1)) := by after_results_simp <;> rfl
/-- The destination list (edge destinations, then every node once). -/
theorem dst_W3 : W3 m ρ c (Proc.devRef .tc main_v6) = val_main_v6 (F := Ideal) (m ((c : Thread nD τ).loc main_arg1)) := by after_results_simp <;> rfl
/-- Which nodes have positive degree (every node does, through its self loop; the program still asks). -/
theorem pos_W1 : W1 m ρ c (Proc.devRef .tc main_v12) = val_main_v12 (F := Ideal) (m ((c : Thread nD τ).loc main_arg1)) := by after_results_simp <;> rfl
/-- The reciprocal square root of the degree. -/
theorem rs_W1 : W1 m ρ c (Proc.devRef .tc main_v13) = val_main_v13 (F := Ideal) (m ((c : Thread nD τ).loc main_arg1)) := by after_results_simp <;> rfl
theorem zero_W1 : W1 m ρ c (Proc.devRef .tc main_cst_2) = val_main_cst_2 (F := Ideal) := by after_results_simp <;> rfl
theorem src_W2 : W2 m ρ c (Proc.devRef .tc main_v3) = val_main_v3 (F := Ideal) (m ((c : Thread nD τ).loc main_arg1)) := by after_results_simp <;> rfl
theorem dst_W2 : W2 m ρ c (Proc.devRef .tc main_v6) = val_main_v6 (F := Ideal) (m ((c : Thread nD τ).loc main_arg1)) := by after_results_simp <;> rfl

/-- The outlined selection of three operations, at any float instance and from any buffer contents: the
    result is the selection, by the first operand, between the second and the broadcast of the scalar third. -/
theorem where_stage {F : FTy → Type} [FloatOps F] (Wg : Valuation τ sig (Elt F)) :
    after hostOps0_1 Wg (Proc.devRef .tc main_v14)
      = (select (Wg (Proc.devRef .tc main_v12) : (⟨S100000, .i1⟩ : BufTy).Contents (Elt F))
          (Wg (Proc.devRef .tc main_v13) : (⟨S100000, .f32⟩ : BufTy).Contents (Elt F))
          (broadcastInDim S100000 ![] bcast_S_S100000 (id (Wg (Proc.devRef .tc main_cst_2) : (⟨S_, .f32⟩ : BufTy).Contents (Elt F))))
          : (⟨S100000, .f32⟩ : BufTy).Contents (Elt F)) := by
  after_results_simp <;> rfl

/-- `deg^(-1/2)` where the degree is positive, zero elsewhere. -/
theorem dinv_W2 : W2 m ρ c (Proc.devRef .tc main_v14) = val_main_v14 (F := Ideal) (m ((c : Thread nD τ).loc main_arg1)) := by
  show after hostOps0_1 (W1 m ρ c) _ = _
  rw [where_stage, pos_W1 m ρ c, rs_W1 m ρ c, zero_W1 m ρ c]
  rfl

/-- The per-edge normalisation `deg^(-1/2)[src] · deg^(-1/2)[dst]`. -/
theorem norm_W3 : W3 m ρ c (Proc.devRef .tc main_v29) = val_main_v29 (F := Ideal) (m ((c : Thread nD τ).loc main_arg1)) := by
  have h14 := dinv_W2 m ρ c
  have h3 := src_W2 m ρ c
  have h6 := dst_W2 m ρ c
  show after hostOps0_2 (W2 m ρ c) _ = _
  generalize W2 m ρ c = Wg at h14 h3 h6 ⊢
  after_results_simp
  rw [h14, h3, h6]
  rfl

/-! ## The first launch: features times weights -/

theorem h1_W4 : W4 m ρ c (Proc.devRef .tc main_v30) = val_main_v30 (F := Ideal) (m ((c : Thread nD τ).loc main_arg0)) (m ((c : Thread nD τ).loc main_arg3)) := by
  refine (W4_arr m ρ c 2).trans ?_
  refine (Launch0.final (V3 m ρ) c).trans ?_
  rw [dot1_eq]
  exact congrArg₂ (prod (n := 100000) (K := 128) (c := 64)) (arg0_W3 m ρ c) (arg3_W3 m ρ c)
theorem src_W4 : W4 m ρ c (Proc.devRef .tc main_v3) = val_main_v3 (F := Ideal) (m ((c : Thread nD τ).loc main_arg1)) :=
  (W4_of_ne m ρ c main_v3 (by decide)).trans (src_W3 m ρ c)
theorem dst_W4 : W4 m ρ c (Proc.devRef .tc main_v6) = val_main_v6 (F := Ideal) (m ((c : Thread nD τ).loc main_arg1)) :=
  (W4_of_ne m ρ c main_v6 (by decide)).trans (dst_W3 m ρ c)
theorem norm_W4 : W4 m ρ c (Proc.devRef .tc main_v29) = val_main_v29 (F := Ideal) (m ((c : Thread nD τ).loc main_arg1)) :=
  (W4_of_ne m ρ c main_v29 (by decide)).trans (norm_W3 m ρ c)
theorem arg4_W4 : W4 m ρ c (Proc.devRef .tc main_arg4) = (m ((c : Thread nD τ).loc main_arg4)) :=
  (W4_of_ne m ρ c main_arg4 (by decide)).trans (arg4_W3 m ρ c)
theorem arg5_W4 : W4 m ρ c (Proc.devRef .tc main_arg5) = (m ((c : Thread nD τ).loc main_arg5)) :=
  (W4_of_ne m ρ c main_arg5 (by decide)).trans (arg5_W3 m ρ c)
theorem arg6_W4 : W4 m ρ c (Proc.devRef .tc main_arg6) = (m ((c : Thread nD τ).loc main_arg6)) :=
  (W4_of_ne m ρ c main_arg6 (by decide)).trans (arg6_W3 m ρ c)
theorem arg7_W4 : W4 m ρ c (Proc.devRef .tc main_arg7) = (m ((c : Thread nD τ).loc main_arg7)) :=
  (W4_of_ne m ρ c main_arg7 (by decide)).trans (arg7_W3 m ρ c)
theorem arg8_W4 : W4 m ρ c (Proc.devRef .tc main_arg8) = (m ((c : Thread nD τ).loc main_arg8)) :=
  (W4_of_ne m ρ c main_arg8 (by decide)).trans (arg8_W3 m ρ c)
theorem arg2_W4 : W4 m ρ c (Proc.devRef .tc main_arg2) = (m ((c : Thread nD τ).loc main_arg2)) :=
  (W4_of_ne m ρ c main_arg2 (by decide)).trans (arg2_W3 m ρ c)
theorem arg9_W4 : W4 m ρ c (Proc.devRef .tc main_arg9) = (m ((c : Thread nD τ).loc main_arg9)) :=
  (W4_of_ne m ρ c main_arg9 (by decide)).trans (arg9_W3 m ρ c)
theorem arg10_W4 : W4 m ρ c (Proc.devRef .tc main_arg10) = (m ((c : Thread nD τ).loc main_arg10)) :=
  (W4_of_ne m ρ c main_arg10 (by decide)).trans (arg10_W3 m ρ c)

/-! ## The first aggregation and the first bias row -/

theorem agg1_W5 : W5 m ρ c (Proc.devRef .tc main_v43) = val_main_v43 (F := Ideal) (m ((c : Thread nD τ).loc main_arg0)) (m ((c : Thread nD τ).loc main_arg1)) (m ((c : Thread nD τ).loc main_arg3)) := by
  after_results_simp
  rw [h1_W4 m ρ c, src_W4 m ρ c, dst_W4 m ρ c, norm_W4 m ρ c]
  rfl
theorem bias1_W5 : W5 m ρ c (Proc.devRef .tc main_v44) = asRow (m ((c : Thread nD τ).loc main_arg4)) := by
  after_results_simp
  rw [arg4_W4 m ρ c]
  funext i
  obtain ⟨u, q, rfl⟩ : ∃ (u : Fin 1) (q : Fin 64), i = ix2 u q := ⟨i 0, i 1, eq_ix2 i⟩
  exact shapeCast_a_1a_apply _ _ u q
theorem src_W5 : W5 m ρ c (Proc.devRef .tc main_v3) = val_main_v3 (F := Ideal) (m ((c : Thread nD τ).loc main_arg1)) :=
  (show W5 m ρ c (Proc.devRef .tc main_v3) = W4 m ρ c (Proc.devRef .tc main_v3) by after_results_simp).trans (src_W4 m ρ c)
theorem dst_W5 : W5 m ρ c (Proc.devRef .tc main_v6) = val_main_v6 (F := Ideal) (m ((c : Thread nD τ).loc main_arg1)) :=
  (show W5 m ρ c (Proc.devRef .tc main_v6) = W4 m ρ c (Proc.devRef .tc main_v6) by after_results_simp).trans (dst_W4 m ρ c)
theorem norm_W5 : W5 m ρ c (Proc.devRef .tc main_v29) = val_main_v29 (F := Ideal) (m ((c : Thread nD τ).loc main_arg1)) :=
  (show W5 m ρ c (Proc.devRef .tc main_v29) = W4 m ρ c (Proc.devRef .tc main_v29) by after_results_simp).trans (norm_W4 m ρ c)
theorem arg5_W5 : W5 m ρ c (Proc.devRef .tc main_arg5) = (m ((c : Thread nD τ).loc main_arg5)) :=
  (show W5 m ρ c (Proc.devRef .tc main_arg5) = W4 m ρ c (Proc.devRef .tc main_arg5) by after_results_simp).trans (arg5_W4 m ρ c)
theorem arg6_W5 : W5 m ρ c (Proc.devRef .tc main_arg6) = (m ((c : Thread nD τ).loc main_arg6)) :=
  (show W5 m ρ c (Proc.devRef .tc main_arg6) = W4 m ρ c (Proc.devRef .tc main_arg6) by after_results_simp).trans (arg6_W4 m ρ c)
theorem arg7_W5 : W5 m ρ c (Proc.devRef .tc main_arg7) = (m ((c : Thread nD τ).loc main_arg7)) :=
  (show W5 m ρ c (Proc.devRef .tc main_arg7) = W4 m ρ c (Proc.devRef .tc main_arg7) by after_results_simp).trans (arg7_W4 m ρ c)
theorem arg8_W5 : W5 m ρ c (Proc.devRef .tc main_arg8) = (m ((c : Thread nD τ).loc main_arg8)) :=
  (show W5 m ρ c (Proc.devRef .tc main_arg8) = W4 m ρ c (Proc.devRef .tc main_arg8) by after_results_simp).trans (arg8_W4 m ρ c)
theorem arg2_W5 : W5 m ρ c (Proc.devRef .tc main_arg2) = (m ((c : Thread nD τ).loc main_arg2)) :=
  (show W5 m ρ c (Proc.devRef .tc main_arg2) = W4 m ρ c (Proc.devRef .tc main_arg2) by after_results_simp).trans (arg2_W4 m ρ c)
theorem arg9_W5 : W5 m ρ c (Proc.devRef .tc main_arg9) = (m ((c : Thread nD τ).loc main_arg9)) :=
  (show W5 m ρ c (Proc.devRef .tc main_arg9) = W4 m ρ c (Proc.devRef .tc main_arg9) by after_results_simp).trans (arg9_W4 m ρ c)
theorem arg10_W5 : W5 m ρ c (Proc.devRef .tc main_arg10) = (m ((c : Thread nD τ).loc main_arg10)) :=
  (show W5 m ρ c (Proc.devRef .tc main_arg10) = W4 m ρ c (Proc.devRef .tc main_arg10) by after_results_simp).trans (arg10_W4 m ρ c)

/-! ## The second launch: the first fused layer -/

theorem h2_W6 : W6 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ?_
  refine (Launch1.final (V5 m ρ) c).trans ?_
  rw [dot1b_eq, relu1_eq]
  exact congrArg₂ (prod (n := 100000) (K := 64) (c := 64))
    (congrArg₂ (act (n := 100000) (c := 64)) (agg1_W5 m ρ c) (bias1_W5 m ρ c)) (arg5_W5 m ρ c)
theorem src_W6 : W6 m ρ c (Proc.devRef .tc main_v3) = val_main_v3 (F := Ideal) (m ((c : Thread nD τ).loc main_arg1)) :=
  (W6_of_ne m ρ c main_v3 (by decide)).trans (src_W5 m ρ c)
theorem dst_W6 : W6 m ρ c (Proc.devRef .tc main_v6) = val_main_v6 (F := Ideal) (m ((c : Thread nD τ).loc main_arg1)) :=
  (W6_of_ne m ρ c main_v6 (by decide)).trans (dst_W5 m ρ c)
theorem norm_W6 : W6 m ρ c (Proc.devRef .tc main_v29) = val_main_v29 (F := Ideal) (m ((c : Thread nD τ).loc main_arg1)) :=
  (W6_of_ne m ρ c main_v29 (by decide)).trans (norm_W5 m ρ c)
theorem arg6_W6 : W6 m ρ c (Proc.devRef .tc main_arg6) = (m ((c : Thread nD τ).loc main_arg6)) :=
  (W6_of_ne m ρ c main_arg6 (by decide)).trans (arg6_W5 m ρ c)
theorem arg7_W6 : W6 m ρ c (Proc.devRef .tc main_arg7) = (m ((c : Thread nD τ).loc main_arg7)) :=
  (W6_of_ne m ρ c main_arg7 (by decide)).trans (arg7_W5 m ρ c)
theorem arg8_W6 : W6 m ρ c (Proc.devRef .tc main_arg8) = (m ((c : Thread nD τ).loc main_arg8)) :=
  (W6_of_ne m ρ c main_arg8 (by decide)).trans (arg8_W5 m ρ c)
theorem arg2_W6 : W6 m ρ c (Proc.devRef .tc main_arg2) = (m ((c : Thread nD τ).loc main_arg2)) :=
  (W6_of_ne m ρ c main_arg2 (by decide)).trans (arg2_W5 m ρ c)
theorem arg9_W6 : W6 m ρ c (Proc.devRef .tc main_arg9) = (m ((c : Thread nD τ).loc main_arg9)) :=
  (W6_of_ne m ρ c main_arg9 (by decide)).trans (arg9_W5 m ρ c)
theorem arg10_W6 : W6 m ρ c (Proc.devRef .tc main_arg10) = (m ((c : Thread nD τ).loc main_arg10)) :=
  (W6_of_ne m ρ c main_arg10 (by decide)).trans (arg10_W5 m ρ c)

/-! ## The second aggregation and bias row -/

theorem agg2_W7 : W7 m ρ c (Proc.devRef .tc main_v58) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  after_results_simp
  rw [h2_W6 m ρ c, src_W6 m ρ c, dst_W6 m ρ c, norm_W6 m ρ c]
  rfl
theorem bias2_W7 : W7 m ρ c (Proc.devRef .tc main_v59) = asRow (m ((c : Thread nD τ).loc main_arg6)) := by
  after_results_simp
  rw [arg6_W6 m ρ c]
  funext i
  obtain ⟨u, q, rfl⟩ : ∃ (u : Fin 1) (q : Fin 64), i = ix2 u q := ⟨i 0, i 1, eq_ix2 i⟩
  exact shapeCast_a_1a_apply _ _ u q
theorem src_W7 : W7 m ρ c (Proc.devRef .tc main_v3) = val_main_v3 (F := Ideal) (m ((c : Thread nD τ).loc main_arg1)) :=
  (show W7 m ρ c (Proc.devRef .tc main_v3) = W6 m ρ c (Proc.devRef .tc main_v3) by after_results_simp).trans (src_W6 m ρ c)
theorem dst_W7 : W7 m ρ c (Proc.devRef .tc main_v6) = val_main_v6 (F := Ideal) (m ((c : Thread nD τ).loc main_arg1)) :=
  (show W7 m ρ c (Proc.devRef .tc main_v6) = W6 m ρ c (Proc.devRef .tc main_v6) by after_results_simp).trans (dst_W6 m ρ c)
theorem norm_W7 : W7 m ρ c (Proc.devRef .tc main_v29) = val_main_v29 (F := Ideal) (m ((c : Thread nD τ).loc main_arg1)) :=
  (show W7 m ρ c (Proc.devRef .tc main_v29) = W6 m ρ c (Proc.devRef .tc main_v29) by after_results_simp).trans (norm_W6 m ρ c)
theorem arg7_W7 : W7 m ρ c (Proc.devRef .tc main_arg7) = (m ((c : Thread nD τ).loc main_arg7)) :=
  (show W7 m ρ c (Proc.devRef .tc main_arg7) = W6 m ρ c (Proc.devRef .tc main_arg7) by after_results_simp).trans (arg7_W6 m ρ c)
theorem arg8_W7 : W7 m ρ c (Proc.devRef .tc main_arg8) = (m ((c : Thread nD τ).loc main_arg8)) :=
  (show W7 m ρ c (Proc.devRef .tc main_arg8) = W6 m ρ c (Proc.devRef .tc main_arg8) by after_results_simp).trans (arg8_W6 m ρ c)
theorem arg2_W7 : W7 m ρ c (Proc.devRef .tc main_arg2) = (m ((c : Thread nD τ).loc main_arg2)) :=
  (show W7 m ρ c (Proc.devRef .tc main_arg2) = W6 m ρ c (Proc.devRef .tc main_arg2) by after_results_simp).trans (arg2_W6 m ρ c)
theorem arg9_W7 : W7 m ρ c (Proc.devRef .tc main_arg9) = (m ((c : Thread nD τ).loc main_arg9)) :=
  (show W7 m ρ c (Proc.devRef .tc main_arg9) = W6 m ρ c (Proc.devRef .tc main_arg9) by after_results_simp).trans (arg9_W6 m ρ c)
theorem arg10_W7 : W7 m ρ c (Proc.devRef .tc main_arg10) = (m ((c : Thread nD τ).loc main_arg10)) :=
  (show W7 m ρ c (Proc.devRef .tc main_arg10) = W6 m ρ c (Proc.devRef .tc main_arg10) by after_results_simp).trans (arg10_W6 m ρ c)

/-! ## The third launch: the second fused layer -/

theorem h3_W8 : W8 m ρ c (Proc.devRef .tc main_v60) = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ?_
  refine (Launch2.final (V7 m ρ) c).trans ?_
  rw [dot2b_eq, relu2_eq]
  exact congrArg₂ (prod (n := 100000) (K := 64) (c := 64))
    (congrArg₂ (act (n := 100000) (c := 64)) (agg2_W7 m ρ c) (bias2_W7 m ρ c)) (arg7_W7 m ρ c)
theorem src_W8 : W8 m ρ c (Proc.devRef .tc main_v3) = val_main_v3 (F := Ideal) (m ((c : Thread nD τ).loc main_arg1)) :=
  (W8_of_ne m ρ c main_v3 (by decide)).trans (src_W7 m ρ c)
theorem dst_W8 : W8 m ρ c (Proc.devRef .tc main_v6) = val_main_v6 (F := Ideal) (m ((c : Thread nD τ).loc main_arg1)) :=
  (W8_of_ne m ρ c main_v6 (by decide)).trans (dst_W7 m ρ c)
theorem norm_W8 : W8 m ρ c (Proc.devRef .tc main_v29) = val_main_v29 (F := Ideal) (m ((c : Thread nD τ).loc main_arg1)) :=
  (W8_of_ne m ρ c main_v29 (by decide)).trans (norm_W7 m ρ c)
theorem arg8_W8 : W8 m ρ c (Proc.devRef .tc main_arg8) = (m ((c : Thread nD τ).loc main_arg8)) :=
  (W8_of_ne m ρ c main_arg8 (by decide)).trans (arg8_W7 m ρ c)
theorem arg2_W8 : W8 m ρ c (Proc.devRef .tc main_arg2) = (m ((c : Thread nD τ).loc main_arg2)) :=
  (W8_of_ne m ρ c main_arg2 (by decide)).trans (arg2_W7 m ρ c)
theorem arg9_W8 : W8 m ρ c (Proc.devRef .tc main_arg9) = (m ((c : Thread nD τ).loc main_arg9)) :=
  (W8_of_ne m ρ c main_arg9 (by decide)).trans (arg9_W7 m ρ c)
theorem arg10_W8 : W8 m ρ c (Proc.devRef .tc main_arg10) = (m ((c : Thread nD τ).loc main_arg10)) :=
  (W8_of_ne m ρ c main_arg10 (by decide)).trans (arg10_W7 m ρ c)

/-! ## The third aggregation and bias row -/

theorem agg3_W9 : W9 m ρ c (Proc.devRef .tc main_v73) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rw [h3_W8 m ρ c, src_W8 m ρ c, dst_W8 m ρ c, norm_W8 m ρ c]
  rfl
theorem bias3_W9 : W9 m ρ c (Proc.devRef .tc main_v74) = asRow (m ((c : Thread nD τ).loc main_arg8)) := by
  after_results_simp
  rw [arg8_W8 m ρ c]
  funext i
  obtain ⟨u, q, rfl⟩ : ∃ (u : Fin 1) (q : Fin 64), i = ix2 u q := ⟨i 0, i 1, eq_ix2 i⟩
  exact shapeCast_a_1a_apply _ _ u q
theorem arg2_W9 : W9 m ρ c (Proc.devRef .tc main_arg2) = (m ((c : Thread nD τ).loc main_arg2)) :=
  (show W9 m ρ c (Proc.devRef .tc main_arg2) = W8 m ρ c (Proc.devRef .tc main_arg2) by after_results_simp).trans (arg2_W8 m ρ c)
theorem arg9_W9 : W9 m ρ c (Proc.devRef .tc main_arg9) = (m ((c : Thread nD τ).loc main_arg9)) :=
  (show W9 m ρ c (Proc.devRef .tc main_arg9) = W8 m ρ c (Proc.devRef .tc main_arg9) by after_results_simp).trans (arg9_W8 m ρ c)
theorem arg10_W9 : W9 m ρ c (Proc.devRef .tc main_arg10) = (m ((c : Thread nD τ).loc main_arg10)) :=
  (show W9 m ρ c (Proc.devRef .tc main_arg10) = W8 m ρ c (Proc.devRef .tc main_arg10) by after_results_simp).trans (arg10_W8 m ρ c)

/-! ## The last launch: bias and clamp -/

theorem h4_W10 : W10 m ρ c (Proc.devRef .tc main_v75) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  refine (Launch3.final (V9 m ρ) c).trans ?_
  rw [relu3_eq]
  exact congrArg₂ (act (n := 100000) (c := 64)) (agg3_W9 m ρ c) (bias3_W9 m ρ c)
theorem arg2_W10 : W10 m ρ c (Proc.devRef .tc main_arg2) = (m ((c : Thread nD τ).loc main_arg2)) :=
  (W10_of_ne m ρ c main_arg2 (by decide)).trans (arg2_W9 m ρ c)
theorem arg9_W10 : W10 m ρ c (Proc.devRef .tc main_arg9) = (m ((c : Thread nD τ).loc main_arg9)) :=
  (W10_of_ne m ρ c main_arg9 (by decide)).trans (arg9_W9 m ρ c)
theorem arg10_W10 : W10 m ρ c (Proc.devRef .tc main_arg10) = (m ((c : Thread nD τ).loc main_arg10)) :=
  (W10_of_ne m ρ c main_arg10 (by decide)).trans (arg10_W9 m ρ c)

/-! ## After the last launch: mean pooling per graph and the classifier -/

/-- THE RESULT: the kernel program's result buffer ends at the reference's function of the arguments. -/
theorem result_eq : W11 m ρ c (Proc.devRef .tc main_v91) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  after_results_simp
  rw [h4_W10 m ρ c, arg2_W10 m ρ c, arg9_W10 m ρ c, arg10_W10 m ρ c]
  rfl

end Cert.KernelIdeal.Walk

end
-- ==== Proof.lean ====
/-
  The certificate: the word-level kernel program, its idealization and the idealized reference each run to
  completion leaving their arguments unchanged, and the two idealized programs return the same [128,5] array
  of class scores as extended reals.

  The network is three graph-convolution layers, a mean over each graph's nodes and a linear classifier.  The
  kernel program computes the dense part of each layer (a matrix product, or "add bias, clamp at zero, matrix
  product", or "add bias, clamp at zero") in a grid launch over blocks of 5000 rows and leaves the edge
  normalisation, the gather / scatter-add aggregation, the pooling and the classifier to the same host
  operations the reference uses.  Block by block the launches compute the reference's whole-array operations
  (no algebraic law beyond reading a sum index by index is needed, so the precondition is never opened), hence
  the two results are one function of the arguments.
-/
import proofs.«130600_j25237227831713_1_alg».proof.Defs
import proofs.«130600_j25237227831713_1_alg».proof.Proof.Gen.Kernel
import proofs.«130600_j25237227831713_1_alg».proof.Proof.Gen.Kernel.Frame
import proofs.«130600_j25237227831713_1_alg».proof.Proof.Gen.KernelIdeal
import proofs.«130600_j25237227831713_1_alg».proof.Proof.Gen.KernelIdeal.Frame
import proofs.«130600_j25237227831713_1_alg».proof.Proof.Gen.ReferenceIdeal
import proofs.«130600_j25237227831713_1_alg».proof.Proof.Gen.Pre_finite_inputs
import proofs.«130600_j25237227831713_1_alg».proof.Proof.KernelRun
import proofs.«130600_j25237227831713_1_alg».proof.Proof.KernelValue
import proofs.«130600_j25237227831713_1_alg».proof.Proof.RefReadP
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the reference's function of the arguments in their result buffer. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Walk.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v99_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
